-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S8192x8192 : Shape := ⟨2, ![8192, 8192]⟩
abbrev S32x2048 : Shape := ⟨2, ![32, 2048]⟩
abbrev S1x2048 : Shape := ⟨2, ![1, 2048]⟩
abbrev S8192x2048 : Shape := ⟨2, ![8192, 2048]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S32x2048 : S_.BroadcastsInDim S32x2048 (![] : Fin 0 → Fin S32x2048.rank)
  reducesTo_S32x2048_S_d0_1 : S32x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S1x2048 .f32) (main_arg5 : FVec F S8192x2048 .f32) (main_v13 : IVec S_ 1) (main_v16 : IVec S32x2048 1) : IVec S_ 1 :=
  let main_c_5 : IVec S_ 1 := constantI S_ 1 1#1
  let main_v17 : IVec S_ 1 := (fun x v => Host.reduce IntOp.andi x v reducesTo_S32x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  main_v28

def fn {F : FTy → Type} [FloatOps F] (main_arg0 : FVec F S32x8192 .f32) (main_arg1 : FVec F S8192x8192 .f32) (main_arg2 : FVec F S8192x8192 .f32) (main_arg3 : FVec F S32x2048 .f32) (main_arg4 : FVec F S1x2048 .f32) (main_arg5 : FVec F S8192x2048 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S32x2048 .f32 := Host.absf main_arg3
  let main_cst_4 : FVec F S_ .f32 := constant S_ .f32 0x7F800000#32
  let main_v15 : FVec F S32x2048 .f32 := broadcastInDim S32x2048 ![] bcast_S_S32x2048 main_cst_4
  let main_v16 : IVec S32x2048 1 := cmpf .olt main_v14 main_v15
  fn_part1 (F := F) main_arg4 main_arg5 main_v13 main_v16
-- ==== Kernel.lean ====
abbrev S32x8192 : Shape := ⟨2, ![32, 8192]⟩
abbrev S8192x8192 : Shape := ⟨2, ![8192, 8192]⟩
abbrev S32x2048 : Shape := ⟨2, ![32, 2048]⟩
abbrev S1x2048 : Shape := ⟨2, ![1, 2048]⟩
abbrev S8192x2048 : Shape := ⟨2, ![8192, 2048]⟩
abbrev S512x2048 : Shape := ⟨2, ![512, 2048]⟩
abbrev S32x512 : Shape := ⟨2, ![32, 512]⟩

abbrev nBuf : Space → Nat
  | .hbm => 7
  | .vmem => 12
  | .smem => 0
  | _ => 0

abbrev bufTy : (tb : Table) → Fin (tcTables nBuf tb) → BufTy
  | .hbm, ⟨0, _⟩ => ⟨S32x8192, .f32⟩
  | .hbm, ⟨1, _⟩ => ⟨S8192x8192, .f32⟩
  | .hbm, ⟨2, _⟩ => ⟨S8192x8192, .f32⟩
  | .hbm, ⟨3, _⟩ => ⟨S32x2048, .f32⟩
  | .hbm, ⟨4, _⟩ => ⟨S1x2048, .f32⟩
  | .hbm, ⟨5, _⟩ => ⟨S8192x2048, .f32⟩
  | .hbm, ⟨6, _⟩ => ⟨S32x8192, .f32⟩
  | .local _ .vmem, ⟨0, _⟩ => ⟨S32x2048, .f32⟩
  | .local _ .vmem, ⟨1, _⟩ => ⟨S32x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S32x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S32x512, .f32⟩
  | .local _ .vmem, ⟨11, _⟩ => ⟨S32x512, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S1x2048_S1x2048_0_0 : ∀ a, (![0, 0] : Fin 2 → Nat) a + S1x2048.size a ≤ S1x2048.size a
  h_S1x2048 : 0 < S1x2048.numel
  inb_S32x2048_S32x2048_0_0 : ∀ a, (![0, 0] : Fin 2 → Nat) a + S32x2048.size a ≤ S32x2048.size a
  h_S32x2048 : 0 < S32x2048.numel
  broadcasts_S1x2048_S32x2048 : S1x2048.Broadcasts S32x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S32x512_S32x512_0_0 : ∀ a, (![0, 0] : Fin 2 → Nat) a + S32x512.size a ≤ S32x512.size a
  h_S32x512 : 0 < S32x512.numel
  shapeCasts_S32x512_S32x512 : S32x512.ShapeCasts S32x512
  dot_S32x2048_S512x2048_S32x512_1_1_0_0_n_n_wf : DotDims.WF S32x2048 S512x2048 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x8192.size a
  hwx0_0 : ∀ i : grid0.Coords, EltTy.bits .f32 = 32 ∨ (Rect.block (s := S32x8192) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x8192.size a
  hwx0_1 : ∀ i : grid0.Coords, EltTy.bits .f32 = 32 ∨ (Rect.block (s := S8192x8192) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .f32 = 32 ∨ (Rect.block (s := S8192x8192) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x2048.size a ≤ S32x2048.size a
  hwx0_3 : ∀ i : grid0.Coords, EltTy.bits .f32 = 32 ∨ (Rect.block (s := S32x2048) S32x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x512.size a ≤ S32x8192.size a
  hwx0_6 : ∀ i : grid0.Coords, EltTy.bits .f32 = 32 ∨ (Rect.block (s := S32x8192) S32x512.size (cc0_transform_6 i) (hinb0_6 i)).WholeWords (EltTy.packing .f32)

variable [Facts₀]

def dot_S32x2048_S512x2048_S32x512_1_1_0_0_n_n : DotDims S32x2048 S512x2048 S32x512 where
  lhsContracting := [1]
  rhsContracting := [1]
  lhsNonContracting := [0]
  rhsNonContracting := [0]
  lhsBatch := []
  rhsBatch := []
  wf := dot_S32x2048_S512x2048_S32x512_1_1_0_0_n_n_wf

abbrev win0_0 : Pipeline.Window sig grid0 :=
  Pipeline.Window.ofSpec (Memref.whole main_arg0) S32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S32x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x8192 : Shape := ⟨2, ![32, 8192]⟩
abbrev S8192x8192 : Shape := ⟨2, ![8192, 8192]⟩
abbrev S32x2048 : Shape := ⟨2, ![32, 2048]⟩
abbrev S1x2048 : Shape := ⟨2, ![1, 2048]⟩
abbrev S8192x2048 : Shape := ⟨2, ![8192, 2048]⟩
abbrev S2048x8192 : Shape := ⟨2, ![2048, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S8192x8192, .f32⟩
  | .hbm, ⟨2, _⟩ => ⟨S8192x8192, .f32⟩
  | .hbm, ⟨3, _⟩ => ⟨S32x2048, .f32⟩
  | .hbm, ⟨4, _⟩ => ⟨S1x2048, .f32⟩
  | .hbm, ⟨5, _⟩ => ⟨S8192x2048, .f32⟩
  | .hbm, ⟨6, _⟩ => ⟨S8192x8192, .f32⟩
  | .hbm, ⟨7, _⟩ => ⟨S8192x8192, .f32⟩
  | .hbm, ⟨8, _⟩ => ⟨S32x8192, .f32⟩
  | .hbm, ⟨9, _⟩ => ⟨S32x2048, .f32⟩
  | .hbm, ⟨10, _⟩ => ⟨S32x2048, .f32⟩
  | .hbm, ⟨11, _⟩ => ⟨S2048x8192, .f32⟩
  | .hbm, ⟨12, _⟩ => ⟨S32x8192, .f32⟩
  | .hbm, ⟨13, _⟩ => ⟨S32x8192, .f32⟩
  | .hbm, ⟨14, _⟩ => ⟨S_, .f32⟩
  | .hbm, ⟨15, _⟩ => ⟨S32x8192, .f32⟩
  | .hbm, ⟨16, _⟩ => ⟨S32x8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S1x2048_S32x2048_0_1 : S1x2048.BroadcastsInDim S32x2048 (![0, 1] : Fin 2 → Fin S32x2048.rank)
  transposes_S8192x2048_S2048x8192_1_0 : S8192x2048.Transposes [1, 0] S2048x8192
  bcast_S_S32x8192 : S_.BroadcastsInDim S32x8192 (![] : Fin 0 → Fin S32x8192.rank)
  dot_S32x8192_S8192x8192_S32x8192_1_0_0_1_n_n_wf : DotDims.WF S32x8192 S8192x8192 S32x8192 [1] [0] [0] [1] [] []
  dot_S32x2048_S2048x8192_S32x8192_1_0_0_1_n_n_wf : DotDims.WF S32x2048 S2048x8192 S32x8192 [1] [0] [0] [1] [] []

variable [Facts₀]

def dot_S32x8192_S8192x8192_S32x8192_1_0_0_1_n_n : DotDims S32x8192 S8192x8192 S32x8192 where
  lhsContracting := [1]
  rhsContracting := [0]
  lhsNonContracting := [0]
  rhsNonContracting := [1]
  lhsBatch := []
  rhsBatch := []
  wf := dot_S32x8192_S8192x8192_S32x8192_1_0_0_1_n_n_wf
def dot_S32x2048_S2048x8192_S32x8192_1_0_0_1_n_n : DotDims S32x2048 S2048x8192 S32x8192 where
  lhsContracting := [1]
  rhsContracting := [0]
  lhsNonContracting := [0]
  rhsNonContracting := [1]
  lhsBatch := []
  rhsBatch := []
  wf := dot_S32x2048_S2048x8192_S32x8192_1_0_0_1_n_n_wf

class Facts : Prop extends Facts₀ where

variable [Facts]
-- ==== Proof.BeliefUpdate.lean ====
/-
  The belief update of one round of message passing, as one function of the six argument arrays, entry by entry.

  For batch row `b` (of 32) and outgoing edge `e` (of 8192):

      out(b, e) = ½ · ( ∑_{v < 2048} (llr_weight(0, v) · llr(b, v)) · expander(e, v)
                       + ∑_{j < 8192} input(b, j) · (mask(e, j) · weight(e, j)) )

  the first sum spreading the weighted channel values of the 2048 variable nodes onto the edges, the second collecting
  the masked, weighted messages of the 8192 incoming edges. Everything is an extended real; ½ is kept as the
  single-precision word both programs spell.
-/
import Idealize.ShloMosaic.Lib.ValueIdx
import Idealize.ShloMosaic.PureOps.Ideal

noncomputable section

namespace Cert.BeliefUpdate

open Idealize.ShloMosaic Idealize.ShloMosaic.ValueIdx BigOperators

/-- The expanded channel term at (b, e): `∑_v (llr_weight(0, v) · llr(b, v)) · expander(e, v)`. -/
def channel (llr : FVec Ideal ⟨2, ![32, 2048]⟩ .f32) (lw : FVec Ideal ⟨2, ![1, 2048]⟩ .f32)
    (ex : FVec Ideal ⟨2, ![8192, 2048]⟩ .f32) (b : Fin 32) (e : Fin 8192) : EReal :=
  ∑ v : Fin 2048, (lw (ix2 (0 : Fin 1) v) * llr (ix2 b v)) * ex (ix2 e v)

/-- One incoming edge's contribution at (b, e): `input(b, j) · (mask(e, j) · weight(e, j))`. -/
def message (x : FVec Ideal ⟨2, ![32, 8192]⟩ .f32) (w mask : FVec Ideal ⟨2, ![8192, 8192]⟩ .f32)
    (b : Fin 32) (e : Fin 8192) (j : Fin 8192) : EReal :=
  x (ix2 b j) * (mask (ix2 e j) * w (ix2 e j))

/-- The update at (b, e): half of the channel term plus all 8192 incoming messages. -/
def entry (x : FVec Ideal ⟨2, ![32, 8192]⟩ .f32) (w mask : FVec Ideal ⟨2, ![8192, 8192]⟩ .f32)
    (llr : FVec Ideal ⟨2, ![32, 2048]⟩ .f32) (lw : FVec Ideal ⟨2, ![1, 2048]⟩ .f32)
    (ex : FVec Ideal ⟨2, ![8192, 2048]⟩ .f32) (b : Fin 32) (e : Fin 8192) : EReal :=
  Ideal.ofBits .f32 0x3F000000#32 * (channel llr lw ex b e + ∑ j : Fin 8192, message x w mask b e j)

/-- The whole [32, 8192] array of updates. -/
def update (x : FVec Ideal ⟨2, ![32, 8192]⟩ .f32) (w mask : FVec Ideal ⟨2, ![8192, 8192]⟩ .f32)
    (llr : FVec Ideal ⟨2, ![32, 2048]⟩ .f32) (lw : FVec Ideal ⟨2, ![1, 2048]⟩ .f32)
    (ex : FVec Ideal ⟨2, ![8192, 2048]⟩ .f32) : FVec Ideal ⟨2, ![32, 8192]⟩ .f32 :=
  fun i => entry x w mask llr lw ex (i 0) (i 1)

end Cert.BeliefUpdate

end
-- ==== Proof.RefValue.lean ====
/-
  The reference program's result is the belief update: read one operation at a time, its entry at (b, e) is
  ½ · (channel term + sum of the 8192 incoming messages), the two transposes only exchanging the coordinates at which
  the expander and the masked weights are read.
-/
import proofs.«104594_j33414845562978_2_alg».proof.Proof.Gen.ReferenceIdeal.Read
import proofs.«104594_j33414845562978_2_alg».proof.Proof.BeliefUpdate

noncomputable section

namespace Cert.ReferenceIdeal.RefValue

open Cert.ReferenceIdeal Cert.ReferenceIdeal.Gen Cert.ReferenceIdeal.Read Idealize.ShloMosaic
open Idealize.ShloMosaic.ValueIdx Cert.BeliefUpdate BigOperators

/-- The reference's last stage, as a function of the six arguments, is the update. -/
theorem result_eq (x0 : FVec Ideal S32x8192 .f32) (x1 x2 : FVec Ideal S8192x8192 .f32) (x3 : FVec Ideal S32x2048 .f32)
    (x4 : FVec Ideal S1x2048 .f32) (x5 : FVec Ideal S8192x2048 .f32) :
    val_main_v9 (F := Ideal) x0 x1 x2 x3 x4 x5 = update x0 x1 x2 x3 x4 x5 := by
  funext i
  obtain ⟨b, e, rfl⟩ : ∃ (b : Fin 32) (e : Fin 8192), i = ix2 b e := ⟨i 0, i 1, eq_ix2 i⟩
  -- the coordinates at which each operand is read
  have hw : ∀ k : Fin 2048, idx_main_v3 (lidx_main_v6 (ix2 b e) k) = ix2 (0 : Fin 1) k := fun k =>
    funext fun a => Fin.ext (by match a with | ⟨0, _⟩ => rfl | ⟨1, _⟩ => rfl)
  have hl : ∀ k : Fin 2048, lidx_main_v6 (ix2 b e) k = ix2 b k := fun k =>
    funext fun a => Fin.ext (by match a with | ⟨0, _⟩ => rfl | ⟨1, _⟩ => rfl)
  have hx : ∀ k : Fin 2048, idx_main_v5 (ridx_main_v6 (ix2 b e) k) = ix2 e k := fun k =>
    funext fun a => Fin.ext (by match a with | ⟨0, _⟩ => rfl | ⟨1, _⟩ => rfl)
  have hi : ∀ k : Fin 8192, lidx_main_v2 (ix2 b e) k = ix2 b k := fun k =>
    funext fun a => Fin.ext (by match a with | ⟨0, _⟩ => rfl | ⟨1, _⟩ => rfl)
  have hm : ∀ k : Fin 8192, idx_main_v1 (ridx_main_v2 (ix2 b e) k) = ix2 e k := fun k =>
    funext fun a => Fin.ext (by match a with | ⟨0, _⟩ => rfl | ⟨1, _⟩ => rfl)
  rw [val_main_v9_apply, val_main_v8_apply, val_main_cst_apply, val_main_v7_apply, val_main_v6_apply, val_main_v2_apply]
  simp only [val_main_v4_apply, val_main_v3_apply, val_main_v5_apply, val_main_v1_apply, val_main_v0_apply,
    Ideal.mulf_def, Ideal.addf_def, Ideal.ofBits_def, hw, hl, hx, hi, hm]
  rfl

end Cert.ReferenceIdeal.RefValue

end
-- ==== Proof.LibRowsDot.lean ====
/-
  A matrix product whose dimension numbers contract the LAST axis of BOTH operands, with no batch axis — rows of the left
  operand against rows of the right one, x · wᵀ for x : [M, K] and w : [N, K] — read at an index. For such a record the left
  operand is read at (row, k) and the right at (column, k), so at the extended reals a product into the zero accumulator is
  the sum over k of x(row, k) · w(column, k), in any order and grouping (addition of extended reals is commutative and
  associative). Nothing here depends on a program: the record's coordinate facts are hypotheses, which each use site proves
  from its own record by unfolding.
-/
import Idealize.ShloMosaic.Lib.ValueIdx
import Idealize.ShloMosaic.PureOps.Ideal.Laws

noncomputable section

open scoped BigOperators

namespace RowsDot

open Idealize.ShloMosaic Idealize.ShloMosaic.ValueIdx

/-- The dimension numbers `D` are those of a rows-against-rows [M, K] × [N, K] product: one contracted axis of extent K;
    the left operand read at (row of the result, contraction position) and the right at (column of the result,
    contraction position). -/
structure IsRowsByRows {M K N : Nat} (D : DotDims ⟨2, ![M, K]⟩ ⟨2, ![N, K]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (i 1).val
  rhs1 : ∀ (i : (⟨2, ![M, N]⟩ : Shape).Idx) (q : D.contr.Idx), (D.rhsIdx i q 1).val = (q ⟨0, by omega⟩).val

variable {M K N : Nat} {φ₁ φ₂ : FTy}

/-- The left operand's index at result index (r, j) and contraction position k is (r, k). -/
theorem IsRowsByRows.lhsIdx_eq {D : DotDims ⟨2, ![M, K]⟩ ⟨2, ![N, K]⟩ ⟨2, ![M, N]⟩} (h : IsRowsByRows D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

/-- The right operand's index at result index (r, j) and contraction position k is (j, k). -/
theorem IsRowsByRows.rhsIdx_eq {D : DotDims ⟨2, ![M, K]⟩ ⟨2, ![N, K]⟩ ⟨2, ![M, N]⟩} (h : IsRowsByRows D) (r : Fin M) (j : Fin N) (k : Fin K) :
    D.rhsIdx (ix2 r j) ((contrEquiv1 D K h.rank h.size).symm k) = ix2 j k :=
  funext fun a => Fin.ext (by
    match a with
    | ⟨0, _⟩ => exact h.rhs0 _ _
    | ⟨1, _⟩ => exact (h.rhs1 _ _).trans (contrEquiv1_symm_val D K h.rank h.size k))

/-- A rows-against-rows product into the zero accumulator, at the extended reals, read at (r, j): the sum over the
    contracted axis of x(r, k) · w(j, k). -/
theorem matmul_zero_apply (D : DotDims ⟨2, ![M, K]⟩ ⟨2, ![N, K]⟩ ⟨2, ![M, N]⟩) (h : IsRowsByRows D) (prec : Option ContractPrecision)
    (x : FVec Ideal ⟨2, ![M, K]⟩ φ₁) (w : FVec Ideal ⟨2, ![N, K]⟩ φ₂) (r : Fin M) (j : Fin N) :
    FloatOps.matmul D prec x w (constant (F := Ideal) ⟨2, ![M, N]⟩ .f32 0x00000000#32) (ix2 r j)
      = ∑ k : Fin K, x (ix2 r k) * w (ix2 j k) := by
  rw [Ideal.matmul_constant_zero_apply, ← Equiv.sum_comp (contrEquiv1 D K h.rank h.size).symm]
  refine Finset.sum_congr rfl fun k _ => ?_
  rw [h.lhsIdx_eq r j k, h.rhsIdx_eq r j k]

end RowsDot

end
-- ==== Proof.TileTerms.lean ====
/-
  What one grid point adds to an output tile, read at an entry.

  A point holds a [32, 2048] piece of the input, [512, 2048] pieces of the mask and of the weights (512 outgoing edges
  against 2048 incoming ones) and, at the first point of a run, the whole [32, 2048] llr array, its [1, 2048] weights
  and a [512, 2048] piece of the expander. The matrix unit contracts the last axis of both of its operands; the change
  to the narrow float format is the identity on extended reals. So at entry (b, q) of the [32, 512] tile:

    the channel term is   ½ · ∑_k (llr_weight(0, k) · llr(b, k)) · expander(q, k),
    a step adds           ½ · ∑_k input(b, k) · (mask(q, k) · weight(q, k))   to what the tile held.
-/
import proofs.«104594_j33414845562978_2_alg».proof.Proof.Gen.KernelIdeal.Skeleton
import proofs.«104594_j33414845562978_2_alg».proof.Proof.LibRowsDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileTerms

open Cert.KernelIdeal Cert.KernelIdeal.Gen Idealize.ShloMosaic Idealize.ShloMosaic.ValueIdx BigOperators

/-- The tile product contracts the last axis of both operands: [32, 2048] against [512, 2048] gives [32, 512]. -/
theorem tile_product_dims : RowsDot.IsRowsByRows (M := 32) (K := 2048) (N := 512) dot_S32x2048_S512x2048_S32x512_1_1_0_0_n_n where
  rank := rfl
  size := rfl
  lhs0 := fun i q => by
    unfold DotDims.lhsIdx
    rw [dif_neg (show ¬(0 : Fin S32x2048.rank) ∈ dot_S32x2048_S512x2048_S32x512_1_1_0_0_n_n.lhsBatch by decide),
      dif_pos (show (0 : Fin S32x2048.rank) ∈ dot_S32x2048_S512x2048_S32x512_1_1_0_0_n_n.lhsNonContracting by decide)]
    rfl
  lhs1 := fun i q => dot_S32x2048_S512x2048_S32x512_1_1_0_0_n_n.lhsIdx_val_of_single rfl i q
  rhs0 := fun i q => by
    unfold DotDims.rhsIdx
    rw [dif_neg (show ¬(0 : Fin S512x2048.rank) ∈ dot_S32x2048_S512x2048_S32x512_1_1_0_0_n_n.rhsBatch by decide),
      dif_pos (show (0 : Fin S512x2048.rank) ∈ dot_S32x2048_S512x2048_S32x512_1_1_0_0_n_n.rhsNonContracting by decide)]
    rfl
  rhs1 := fun i q => dot_S32x2048_S512x2048_S32x512_1_1_0_0_n_n.rhsIdx_val_of_single rfl i q

/-- The channel term a run's first point writes, at entry (b, q) of the tile. -/
theorem channel_tile (lw : Vec Ideal S1x2048 .f32) (llr : Vec Ideal S32x2048 .f32) (ex : Vec Ideal S512x2048 .f32)
    (b : Fin 32) (q : Fin 512) :
    k0_pay1 (F := Ideal) lw llr ex (ix2 b q)
      = Ideal.ofBits .f32 0x3F000000#32 * ∑ k : Fin 2048, (lw (ix2 (0 : Fin 1) k) * llr (ix2 b k)) * ex (ix2 q k) := by
  show Ideal.ofBits .f32 0x3F000000#32 * FloatOps.matmul dot_S32x2048_S512x2048_S32x512_1_1_0_0_n_n none
      (truncf .bf16 (mulf (broadcastTo S32x2048 lw broadcasts_S1x2048_S32x2048) llr) bitsLt_bf16_f32)
      (truncf .bf16 ex bitsLt_bf16_f32) (constant (F := Ideal) S32x512 .f32 0x00000000#32) (ix2 b q) = _
  rw [RowsDot.matmul_zero_apply _ tile_product_dims]
  refine congrArg _ (Finset.sum_congr rfl fun k _ => ?_)
  rw [truncf_apply, truncf_apply, mulf_apply, broadcastTo_1b_ab_apply]

/-- What a point leaves in the tile, at entry (b, q): what the tile held plus half of the point's messages. -/
theorem step_tile (mask w : Vec Ideal S512x2048 .f32) (x : Vec Ideal S32x2048 .f32) (acc : Vec Ideal S32x512 .f32)
    (b : Fin 32) (q : Fin 512) :
    k0_pay2 (F := Ideal) mask w x acc (ix2 b q)
      = acc (ix2 b q) + Ideal.ofBits .f32 0x3F000000#32 * ∑ k : Fin 2048, x (ix2 b k) * (mask (ix2 q k) * w (ix2 q k)) := by
  show (shapeCast S32x512 acc shapeCasts_S32x512_S32x512) (ix2 b q) + Ideal.ofBits .f32 0x3F000000#32 * FloatOps.matmul dot_S32x2048_S512x2048_S32x512_1_1_0_0_n_n none
      (truncf .bf16 x bitsLt_bf16_f32)
      (mulf (truncf .bf16 mask bitsLt_bf16_f32) (truncf .bf16 w bitsLt_bf16_f32)) (constant (F := Ideal) S32x512 .f32 0x00000000#32) (ix2 b q) = _
  rw [shapeCast_self, RowsDot.matmul_zero_apply _ tile_product_dims]
  refine congrArg _ (congrArg _ (Finset.sum_congr rfl fun k _ => ?_))
  rw [truncf_apply, mulf_apply, truncf_apply, truncf_apply]

end Cert.KernelIdeal.TileTerms

end
-- ==== Proof.LibSums.lean ====
/-
  General lemmas on finite sums, used to compare a sum accumulated tile by tile over zero-padded rows with the plain sum
  over the rows.

  * `coe_sum`: the inclusion of the reals in the extended reals commutes with finite sums.
  * `partialSum`: for a family indexed by `Fin (T * B)`, seen as `T` consecutive tiles of `B` entries, the sum of the
    entries of the first `t` tiles. It starts at `0`, grows by one tile's sum at each step, and ends at the full sum;
    so any accumulator obeying the same recurrence ends at the full sum (`acc_eq_sum`).
  * `sum_pad`: extending a family on `Fin n` by zeros to `Fin N` (`n ≤ N`) does not change its sum.
  Each statement is given for symbolic extents and again for the literal extents 62 * 16384 = 1015808 and
  1000000 ≤ 1015808.
-/
import Mathlib
import Idealize.ShloMosaic.PureOps.Ideal

noncomputable section

namespace Cert.LibSums

open BigOperators

/-! ### Real sums inside the extended reals -/

/-- The inclusion `ℝ → EReal` commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The inclusion `ℝ → EReal` commutes with a sum over a whole finite type. -/
theorem coe_sum_univ {ι : Type*} [Fintype ι] (f : ι → ℝ) :
    ((∑ i, f i : ℝ) : EReal) = ∑ i, (f i : EReal) :=
  coe_sum Finset.univ f

/-! ### A sum accumulated tile by tile -/

section Tiles

variable {M : Type*} [AddCommMonoid M]

/-- Entry `i` of tile `t` lies inside `T` tiles of `B` entries. -/
theorem tile_idx_lt {T B t i : ℕ} (ht : t < T) (hi : i < B) : t * B + i < T * B := by
  have h1 : (t + 1) * B ≤ T * B := Nat.mul_le_mul_right B ht
  have h2 : (t + 1) * B = t * B + B := Nat.succ_mul t B
  omega

/-- The sum of the entries of the first `t` tiles of a family of `T` tiles of `B` entries: the entries whose position is
    below `t * B`. -/
def partialSum {T B : ℕ} (f : Fin (T * B) → M) (t : ℕ) : M :=
  ∑ p : Fin (T * B), if p.val < t * B then f p else 0

/-- No tile, no entry: the partial sum starts at zero. -/
theorem partialSum_zero {T B : ℕ} (f : Fin (T * B) → M) : partialSum f 0 = 0 := by
  unfold partialSum
  refine Finset.sum_eq_zero fun p _ => ?_
  rw [if_neg]
  omega

/-- All `T` tiles hold every entry: the last partial sum is the full sum. -/
theorem partialSum_top {T B : ℕ} (f : Fin (T * B) → M) : partialSum f T = ∑ p, f p := by
  unfold partialSum
  exact Finset.sum_congr rfl fun p _ => if_pos p.isLt

/-- One more tile adds that tile's sum: positions `t * B ≤ p < (t + 1) * B` are exactly `t * B + i` for `i < B`. -/
theorem partialSum_succ {T B : ℕ} (f : Fin (T * B) → M) {t : ℕ} (ht : t < T) :
    partialSum f (t + 1)
      = partialSum f t + ∑ i : Fin B, f ⟨t * B + i.val, tile_idx_lt ht i.isLt⟩ := by
  unfold partialSum
  have hB : (t + 1) * B = t * B + B := Nat.succ_mul t B
  have hsplit : ∀ p : Fin (T * B), (if p.val < (t + 1) * B then f p else 0)
      = (if p.val < t * B then f p else 0)
        + (if t * B ≤ p.val ∧ p.val < (t + 1) * B then f p else 0) := by
    intro p
    by_cases h1 : p.val < t * B
    · have h2 : p.val < (t + 1) * B := by omega
      have h3 : ¬ (t * B ≤ p.val ∧ p.val < (t + 1) * B) := by omega
      rw [if_pos h1, if_pos h2, if_neg h3, add_zero]
    · by_cases h2 : p.val < (t + 1) * B
      · have h3 : t * B ≤ p.val ∧ p.val < (t + 1) * B := ⟨by omega, h2⟩
        rw [if_neg h1, if_pos h2, if_pos h3, zero_add]
      · have h3 : ¬ (t * B ≤ p.val ∧ p.val < (t + 1) * B) := fun h => h2 h.2
        rw [if_neg h1, if_neg h2, if_neg h3, add_zero]
  rw [Finset.sum_congr rfl (fun p _ => hsplit p), Finset.sum_add_distrib]
  congr 1
  rw [← Finset.sum_filter]
  symm
  refine Finset.sum_bij (fun i _ => (⟨t * B + i.val, tile_idx_lt ht i.isLt⟩ : Fin (T * B))) ?_ ?_ ?_ ?_
  · intro i _
    have hi := i.isLt
    simp only [Finset.mem_filter, Finset.mem_univ, true_and]
    constructor <;> omega
  · intro i _ j _ h
    have hv : t * B + i.val = t * B + j.val := congrArg Fin.val h
    exact Fin.ext (by omega)
  · intro p hp
    simp only [Finset.mem_filter, Finset.mem_univ, true_and] at hp
    refine ⟨⟨p.val - t * B, by omega⟩, Finset.mem_univ _, ?_⟩
    apply Fin.ext
    show t * B + (p.val - t * B) = p.val
    omega
  · intro i _
    rfl

/-- An accumulator that starts at zero and gains one tile's sum at each of `T` steps is, after `t ≤ T` steps, the partial
    sum of the first `t` tiles. -/
theorem acc_eq_partialSum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    ∀ t, t ≤ T → acc t = partialSum f t := by
  intro t
  induction t with
  | zero => intro _; rw [h0, partialSum_zero]
  | succ t ih =>
    intro ht
    have ht' : t < T := ht
    rw [hs t ht', partialSum_succ f ht', ih (Nat.le_of_lt ht')]

/-- … and after all `T` steps it is the full sum. -/
theorem acc_eq_sum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    acc T = ∑ p, f p := by
  rw [acc_eq_partialSum f acc h0 hs T (Nat.le_refl T), partialSum_top]

/-! The same at 62 tiles of 16384 entries, 62 * 16384 = 1015808. -/

/-- Entry `i` of tile `t` lies below 1015808. -/
theorem tile_idx_lt' (t : Fin 62) (i : Fin 16384) : t.val * 16384 + i.val < 1015808 := by
  have ht := t.isLt
  have hi := i.isLt
  omega

/-- The sum of the first `t` tiles of 16384 entries of a family of 1015808 entries. -/
def partialSum62 (f : Fin 1015808 → M) (t : ℕ) : M :=
  ∑ p : Fin 1015808, if p.val < t * 16384 then f p else 0

theorem partialSum62_eq (f : Fin 1015808 → M) (t : ℕ) :
    partialSum62 f t = partialSum (T := 62) (B := 16384) f t := rfl

/-- It starts at zero. -/
theorem partialSum62_zero (f : Fin 1015808 → M) : partialSum62 f 0 = 0 :=
  partialSum_zero (T := 62) (B := 16384) f

/-- Tile `t` adds its 16384 entries. -/
theorem partialSum62_succ (f : Fin 1015808 → M) (t : Fin 62) :
    partialSum62 f (t.val + 1)
      = partialSum62 f t.val + ∑ i : Fin 16384, f ⟨t.val * 16384 + i.val, tile_idx_lt' t i⟩ :=
  partialSum_succ (T := 62) (B := 16384) f t.isLt

/-- After 62 tiles it is the full sum. -/
theorem partialSum62_top (f : Fin 1015808 → M) : partialSum62 f 62 = ∑ p, f p :=
  partialSum_top (T := 62) (B := 16384) f

/-- An accumulator over 62 grid points that starts at zero and gains tile `t`'s sum at point `t` ends at the full sum over
    the 1015808 entries. -/
theorem acc62_eq_sum (f : Fin 1015808 → M) (acc : ℕ → M) (h0 : acc 0 = 0)
    (hs : ∀ t : Fin 62, acc (t.val + 1)
      = acc t.val + ∑ i : Fin 16384, f ⟨t.val * 16384 + i.val, tile_idx_lt' t i⟩) :
    acc 62 = ∑ p, f p :=
  acc_eq_sum (T := 62) (B := 16384) f acc h0 (fun t ht => hs ⟨t, ht⟩)

end Tiles

/-! ### Zero padding -/

section Pad

variable {M : Type*} [AddCommMonoid M]

/-- A family on `Fin n` extended by zeros to `Fin N`, `n ≤ N`, has the same sum. -/
theorem sum_pad {n N : ℕ} (hnN : n ≤ N) (g : Fin n → M) :
    (∑ p : Fin N, (if h : p.val < n then g ⟨p.val, h⟩ else 0)) = ∑ r : Fin n, g r := by
  have h1 : (∑ p : Fin N, (if h : p.val < n then g ⟨p.val, h⟩ else 0))
      = ∑ k ∈ Finset.range N, (if h : k < n then g ⟨k, h⟩ else 0) :=
    Fin.sum_univ_eq_sum_range (fun k => if h : k < n then g ⟨k, h⟩ else 0) N
  have h2 : (∑ r : Fin n, g r) = ∑ k ∈ Finset.range n, (if h : k < n then g ⟨k, h⟩ else 0) := by
    rw [← Fin.sum_univ_eq_sum_range (fun k => if h : k < n then g ⟨k, h⟩ else 0) n]
    exact Finset.sum_congr rfl fun r _ => by rw [dif_pos r.isLt]
  rw [h1, h2]
  symm
  refine Finset.sum_subset (fun k hk => Finset.mem_range.2 (lt_of_lt_of_le (Finset.mem_range.1 hk) hnN)) fun k _ hk => ?_
  have hkn : ¬ k < n := fun hlt => hk (Finset.mem_range.2 hlt)
  exact dif_neg hkn

/-- The same for a family of a position alone, cut off at `n`. -/
theorem sum_pad_nat {n N : ℕ} (hnN : n ≤ N) (g : ℕ → M) :
    (∑ p : Fin N, (if p.val < n then g p.val else 0)) = ∑ r : Fin n, g r.val := by
  rw [← sum_pad hnN (fun r : Fin n => g r.val)]
  exact Finset.sum_congr rfl fun p _ => by
    by_cases h : p.val < n
    · rw [if_pos h, dif_pos h]
    · rw [if_neg h, dif_neg h]

/-- 1,000,000 rows padded by zeros to 1,015,808 have the same sum. -/
theorem sum_pad_rows (g : Fin 1000000 → M) :
    (∑ p : Fin 1015808, (if h : p.val < 1000000 then g ⟨p.val, h⟩ else 0)) = ∑ r : Fin 1000000, g r :=
  sum_pad (by norm_num) g

/-- The same for a table of rows and columns, at a fixed column. -/
theorem sum_pad_rows₂ {κ : Type*} (g : Fin 1000000 → κ → M) (c : κ) :
    (∑ p : Fin 1015808, (if h : p.val < 1000000 then g ⟨p.val, h⟩ c else 0)) = ∑ r : Fin 1000000, g r c :=
  sum_pad_rows (fun r => g r c)

end Pad

end Cert.LibSums

end
-- ==== Proof.HalvedSum.lean ====
/-
  The arithmetic that joins a sum accumulated tile by tile, each tile already halved, to the half of the whole sum.

  The belief update is  out = ½ · (A + B)  with  B = ∑ over 8192 incoming edges.  A tiled evaluation forms
  ½·A + ½·B₀ first and then adds ½·B₁, ½·B₂, ½·B₃, where B_k is the sum over the k-th run of 2048 consecutive
  edges. On the extended reals multiplication by a nonnegative real factor distributes over every sum (no entry
  need be finite), and addition is associative, so the two arrangements agree.
-/
import Mathlib
import Idealize.ShloMosaic.PureOps.Ideal
import proofs.«104594_j33414845562978_2_alg».proof.Proof.LibSums

noncomputable section

namespace Cert.HalvedSum

open Idealize.ShloMosaic BigOperators

/-- The single-precision word 0x3F000000 is the real number one half. -/
theorem half_word : Ideal.ofBits .f32 0x3F000000#32 = (((1 : ℝ) / 2 : ℝ) : EReal) := by
  simp [Ideal.ofBits, Ideal.ieee, -EReal.coe_mul]; norm_num

/-- One half is nonnegative. -/
theorem half_nonneg : (0 : EReal) ≤ Ideal.ofBits .f32 0x3F000000#32 := by
  rw [half_word]
  exact_mod_cast (by norm_num : (0 : ℝ) ≤ 1 / 2)

/-- One half is not +∞. -/
theorem half_ne_top : Ideal.ofBits .f32 0x3F000000#32 ≠ ⊤ := by
  rw [half_word]
  exact EReal.coe_ne_top _

/-- Position `j` of tile `k`, of four tiles of 2048, lies below 8192. -/
theorem tile_lt (k : Fin 4) (j : Fin 2048) : k.val * 2048 + j.val < 8192 := by
  have hk := k.isLt
  have hj := j.isLt
  omega

/-- A sum over 8192 positions is the sum of its four consecutive tiles of 2048, added left to right. -/
theorem sum_four_tiles (f : Fin 8192 → EReal) :
    ∑ p, f p = (((∑ j : Fin 2048, f ⟨(0 : Fin 4).val * 2048 + j.val, tile_lt 0 j⟩)
        + ∑ j : Fin 2048, f ⟨(1 : Fin 4).val * 2048 + j.val, tile_lt 1 j⟩)
        + ∑ j : Fin 2048, f ⟨(2 : Fin 4).val * 2048 + j.val, tile_lt 2 j⟩)
        + ∑ j : Fin 2048, f ⟨(3 : Fin 4).val * 2048 + j.val, tile_lt 3 j⟩ := by
  have h4 := Cert.LibSums.partialSum_top (T := 4) (B := 2048) f
  have s3 := Cert.LibSums.partialSum_succ (T := 4) (B := 2048) f (t := 3) (by decide)
  have s2 := Cert.LibSums.partialSum_succ (T := 4) (B := 2048) f (t := 2) (by decide)
  have s1 := Cert.LibSums.partialSum_succ (T := 4) (B := 2048) f (t := 1) (by decide)
  have s0 := Cert.LibSums.partialSum_succ (T := 4) (B := 2048) f (t := 0) (by decide)
  have z := Cert.LibSums.partialSum_zero (T := 4) (B := 2048) f
  rw [← h4, s3, s2, s1, s0, z, zero_add]
  rfl

/-- THE LAW. For a nonnegative real factor `h`: starting from `h·A + h·B₀` and adding `h·B₁`, `h·B₂`, `h·B₃` in turn
    gives `h·(A + B)`, where `B` is the sum of `f` over all 8192 positions and `B_k` the sum of `g k`, tile `k` of `f`. -/
theorem tiled_eq_whole (h A : EReal) (hn : 0 ≤ h) (ht : h ≠ ⊤) (f : Fin 8192 → EReal) (g : Fin 4 → Fin 2048 → EReal)
    (hg : ∀ (k : Fin 4) (j : Fin 2048), g k j = f ⟨k.val * 2048 + j.val, tile_lt k j⟩) :
    (((h * A + h * ∑ j, g 0 j) + h * ∑ j, g 1 j) + h * ∑ j, g 2 j) + h * ∑ j, g 3 j
      = h * (A + ∑ p, f p) := by
  rw [sum_four_tiles f]
  simp only [← hg]
  rw [← add_assoc, ← add_assoc, ← add_assoc]
  rw [EReal.left_distrib_of_nonneg_of_ne_top hn ht, EReal.left_distrib_of_nonneg_of_ne_top hn ht,
    EReal.left_distrib_of_nonneg_of_ne_top hn ht, EReal.left_distrib_of_nonneg_of_ne_top hn ht]

end Cert.HalvedSum

end
-- ==== Proof.TileReads.lean ====
/-
  Where each window's block at a grid point sits in its array.

  The grid is 16 × 4: point t = 4·n + k works on output tile n (outgoing edges 512·n … 512·n + 511) and on the k-th run
  of 2048 incoming edges. At that point the input's block is columns 2048·k …, the mask's and the weights' block is
  rows 512·n … by columns 2048·k …, the expander's block is rows 512·n …, and the llr array and its weights are
  taken whole. Each lemma reads one block at a local entry as the array at the corresponding global entry.
-/
import proofs.«104594_j33414845562978_2_alg».proof.Proof.Gen.KernelIdeal.Frame
import proofs.«104594_j33414845562978_2_alg».proof.Proof.HalvedSum
import Idealize.ShloMosaic.Lib.Pipeline.Value
import Idealize.ShloMosaic.Lib.ValueIdx

noncomputable section

namespace Cert.KernelIdeal.TileReads

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ)

/-- Outgoing edge `q` of tile `n`, of sixteen tiles of 512, lies below 8192. -/
theorem edge_lt (n : Fin 16) (q : Fin 512) : n.val * 512 + q.val < 8192 := by
  have hn := n.isLt
  have hq := q.isLt
  omega

/-- Outgoing edge `q` of tile `n`. -/
abbrev edge (n : Fin 16) (q : Fin 512) : Fin 8192 := ⟨n.val * 512 + q.val, edge_lt n q⟩

/-- Incoming edge `j` of run `k`, of four runs of 2048. -/
abbrev incoming (k : Fin 4) (j : Fin 2048) : Fin 8192 := ⟨k.val * 2048 + j.val, Cert.HalvedSum.tile_lt k j⟩

/-- The printed index maps, decided over the 64 grid points: which block of each array point `t` works on. -/
theorem block_indices : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = 0 :=
  (by decide +kernel : ∀ t : Fin grid0.N, _)

/-- The input's block at point 4·n + k: all 32 rows, columns of run k. -/
theorem input_block (c : Dev nD) (t : Fin cfg0.N) (n : Fin 16) (k : Fin 4) (ht : t.val = 4 * n.val + k.val)
    (b : Fin 32) (j : Fin 2048) :
    (iblk m c 0 t : Vec F S32x2048 .f32) (ix2 b j) = m ((c : Thread nD τ).loc main_arg0) (ix2 b (incoming k j)) := by
  obtain ⟨h0, h1, -⟩ := block_indices t
  have hn := n.isLt
  have hk := k.isLt
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 32 + 1 * b.val = b.val; rw [h0]; omega
  | ⟨1, _⟩ => show win0_0.index t (1 : Fin 2) * 2048 + 1 * j.val = k.val * 2048 + j.val; rw [h1]; omega

/-- The mask's block at point 4·n + k: rows of tile n, columns of run k. -/
theorem mask_block (c : Dev nD) (t : Fin cfg0.N) (n : Fin 16) (k : Fin 4) (ht : t.val = 4 * n.val + k.val)
    (q : Fin 512) (j : Fin 2048) :
    (iblk m c 1 t : Vec F S512x2048 .f32) (ix2 q j) = m ((c : Thread nD τ).loc main_arg2) (ix2 (edge n q) (incoming k j)) := by
  obtain ⟨-, -, h0, h1, -⟩ := block_indices t
  have hn := n.isLt
  have hk := k.isLt
  unfold iblk
  rw [View.read_apply]
  show m ((c : Thread nD τ).loc main_arg2) _ = m ((c : Thread nD τ).loc main_arg2) _
  congr 1
  funext a
  apply Fin.ext
  match a with
  | ⟨0, _⟩ => show win0_1.index t (0 : Fin 2) * 512 + 1 * q.val = n.val * 512 + q.val; rw [h0]; omega
  | ⟨1, _⟩ => show win0_1.index t (1 : Fin 2) * 2048 + 1 * j.val = k.val * 2048 + j.val; rw [h1]; omega

/-- The weights' block at point 4·n + k: rows of tile n, columns of run k. -/
theorem weight_block (c : Dev nD) (t : Fin cfg0.N) (n : Fin 16) (k : Fin 4) (ht : t.val = 4 * n.val + k.val)
    (q : Fin 512) (j : Fin 2048) :
    (iblk m c 2 t : Vec F S512x2048 .f32) (ix2 q j) = m ((c : Thread nD τ).loc main_arg1) (ix2 (edge n q) (incoming k j)) := by
  obtain ⟨-, -, -, -, h0, h1, -⟩ := block_indices t
  have hn := n.isLt
  have hk := k.isLt
  unfold iblk
  rw [View.read_apply]
  show m ((c : Thread nD τ).loc main_arg1) _ = m ((c : Thread nD τ).loc main_arg1) _
  congr 1
  funext a
  apply Fin.ext
  match a with
  | ⟨0, _⟩ => show win0_2.index t (0 : Fin 2) * 512 + 1 * q.val = n.val * 512 + q.val; rw [h0]; omega
  | ⟨1, _⟩ => show win0_2.index t (1 : Fin 2) * 2048 + 1 * j.val = k.val * 2048 + j.val; rw [h1]; omega

/-- The llr array is taken whole at every point. -/
theorem llr_block (c : Dev nD) (t : Fin cfg0.N) (b : Fin 32) (v : Fin 2048) :
    (iblk m c 3 t : Vec F S32x2048 .f32) (ix2 b v) = m ((c : Thread nD τ).loc main_arg3) (ix2 b v) := by
  obtain ⟨-, -, -, -, -, -, h0, h1, -⟩ := block_indices t
  unfold iblk
  rw [View.read_apply]
  show m ((c : Thread nD τ).loc main_arg3) _ = m ((c : Thread nD τ).loc main_arg3) _
  congr 1
  funext a
  apply Fin.ext
  match a with
  | ⟨0, _⟩ => show win0_3.index t (0 : Fin 2) * 32 + 1 * b.val = b.val; rw [h0]; omega
  | ⟨1, _⟩ => show win0_3.index t (1 : Fin 2) * 2048 + 1 * v.val = v.val; rw [h1]; omega

/-- The llr weights are taken whole at every point. -/
theorem llr_weight_block (c : Dev nD) (t : Fin cfg0.N) (z : Fin 1) (v : Fin 2048) :
    (iblk m c 4 t : Vec F S1x2048 .f32) (ix2 z v) = m ((c : Thread nD τ).loc main_arg4) (ix2 z v) := by
  obtain ⟨-, -, -, -, -, -, -, -, h0, h1, -⟩ := block_indices t
  unfold iblk
  rw [View.read_apply]
  show m ((c : Thread nD τ).loc main_arg4) _ = m ((c : Thread nD τ).loc main_arg4) _
  congr 1
  funext a
  apply Fin.ext
  match a with
  | ⟨0, _⟩ => show win0_4.index t (0 : Fin 2) * 1 + 1 * z.val = z.val; rw [h0]; omega
  | ⟨1, _⟩ => show win0_4.index t (1 : Fin 2) * 2048 + 1 * v.val = v.val; rw [h1]; omega

/-- The expander's block at point 4·n + k: rows of tile n, all 2048 columns. -/
theorem expander_block (c : Dev nD) (t : Fin cfg0.N) (n : Fin 16) (k : Fin 4) (ht : t.val = 4 * n.val + k.val)
    (q : Fin 512) (v : Fin 2048) :
    (iblk m c 5 t : Vec F S512x2048 .f32) (ix2 q v) = m ((c : Thread nD τ).loc main_arg5) (ix2 (edge n q) v) := by
  obtain ⟨-, -, -, -, -, -, -, -, -, -, h0, h1⟩ := block_indices t
  have hn := n.isLt
  have hk := k.isLt
  unfold iblk
  rw [View.read_apply]
  show m ((c : Thread nD τ).loc main_arg5) _ = m ((c : Thread nD τ).loc main_arg5) _
  congr 1
  funext a
  apply Fin.ext
  match a with
  | ⟨0, _⟩ => show win0_5.index t (0 : Fin 2) * 512 + 1 * q.val = n.val * 512 + q.val; rw [h0]; omega
  | ⟨1, _⟩ => show win0_5.index t (1 : Fin 2) * 2048 + 1 * v.val = v.val; rw [h1]; omega

end Cert.KernelIdeal.TileReads

end
-- ==== Proof.TileFold.lean ====
/-
  The kernel's result array is the belief update.

  Output tile n (outgoing edges 512·n … 512·n + 511) is built by the run of four grid points 4·n … 4·n + 3. The first
  point writes ½·(channel term) + ½·(messages of the incoming edges 0 … 2047); each later point k adds ½·(messages of
  the incoming edges 2048·k … 2048·k + 2047). Since multiplying by ½ distributes over sums of extended reals, what
  the tile holds after the fourth point is ½·(channel term + all 8192 messages): the update.
-/
import proofs.«104594_j33414845562978_2_alg».proof.Proof.Gen.KernelIdeal.Value
import proofs.«104594_j33414845562978_2_alg».proof.Proof.TileTerms
import proofs.«104594_j33414845562978_2_alg».proof.Proof.TileReads
import proofs.«104594_j33414845562978_2_alg».proof.Proof.BeliefUpdate
import proofs.«104594_j33414845562978_2_alg».proof.Proof.HalvedSum

noncomputable section

namespace Cert.KernelIdeal.TileFold

open Cert.KernelIdeal Cert.KernelIdeal.Gen Idealize.ShloMosaic Idealize.ShloMosaic.TcCoe Idealize.ShloMosaic.ValueIdx
open Idealize.SL.Sem Cert.BeliefUpdate Cert.KernelIdeal.TileReads BigOperators

variable (m : (ℓ : Loc nD τ sig) → Buf (Elt Ideal) ℓ)

/-- Point 4·n + k adds, at entry (b, q) of tile n, half of the messages of the k-th run of incoming edges. -/
theorem step_at (c : Dev nD) (t : ℕ) (h : t < cfg0.N) (n : Fin 16) (k : Fin 4) (ht : t = 4 * n.val + k.val)
    (acc : Vec Ideal S32x512 .f32) (b : Fin 32) (q : Fin 512) :
    Value.step6 m c t h acc (ix2 b q)
      = acc (ix2 b q) + Ideal.ofBits .f32 0x3F000000#32 * ∑ j : Fin 2048, message (m ((c : Thread nD τ).loc main_arg0)) (m ((c : Thread nD τ).loc main_arg1)) (m ((c : Thread nD τ).loc main_arg2)) b (edge n q) (incoming k j) := by
  unfold Value.step6
  refine (TileTerms.step_tile (iblk m c 1 ⟨t, h⟩) (iblk m c 2 ⟨t, h⟩) (iblk m c 0 ⟨t, h⟩) acc b q).trans ?_
  refine congrArg _ (congrArg _ (Finset.sum_congr rfl fun j _ => ?_))
  rw [input_block m c ⟨t, h⟩ n k ht b j, mask_block m c ⟨t, h⟩ n k ht q j, weight_block m c ⟨t, h⟩ n k ht q j]
  rfl

/-- Point 4·n writes, at entry (b, q) of tile n, half of the channel term plus half of the messages of the first run of
    incoming edges. -/
theorem reset_at (c : Dev nD) (t : ℕ) (h : t < cfg0.N) (n : Fin 16) (ht : t = 4 * n.val + (0 : Fin 4).val)
    (b : Fin 32) (q : Fin 512) :
    Value.reset6 m c t h (ix2 b q)
      = Ideal.ofBits .f32 0x3F000000#32 * channel (m ((c : Thread nD τ).loc main_arg3)) (m ((c : Thread nD τ).loc main_arg4)) (m ((c : Thread nD τ).loc main_arg5)) b (edge n q)
        + Ideal.ofBits .f32 0x3F000000#32 * ∑ j : Fin 2048, message (m ((c : Thread nD τ).loc main_arg0)) (m ((c : Thread nD τ).loc main_arg1)) (m ((c : Thread nD τ).loc main_arg2)) b (edge n q) (incoming 0 j) := by
  unfold Value.reset6
  refine (TileTerms.step_tile (iblk m c 1 ⟨t, h⟩) (iblk m c 2 ⟨t, h⟩) (iblk m c 0 ⟨t, h⟩)
    (k0_pay1 (iblk m c 4 ⟨t, h⟩) (iblk m c 3 ⟨t, h⟩) (iblk m c 5 ⟨t, h⟩)) b q).trans ?_
  refine congrArg₂ (· + ·) ?_ (congrArg _ (Finset.sum_congr rfl fun j _ => ?_))
  · refine (TileTerms.channel_tile (iblk m c 4 ⟨t, h⟩) (iblk m c 3 ⟨t, h⟩) (iblk m c 5 ⟨t, h⟩) b q).trans ?_
    refine congrArg _ (Finset.sum_congr rfl fun v _ => ?_)
    rw [llr_weight_block m c ⟨t, h⟩ 0 v, llr_block m c ⟨t, h⟩ b v, expander_block m c ⟨t, h⟩ n 0 ht q v]
  · rw [input_block m c ⟨t, h⟩ n 0 ht b j, mask_block m c ⟨t, h⟩ n 0 ht q j, weight_block m c ⟨t, h⟩ n 0 ht q j]
    rfl

/-- After the four points of its run, tile n holds the update at each of its entries. -/
theorem fold_entry (c : Dev nD) (n : Fin 16) (B : ℕ) (hB : B = 4 * n.val) (h : B + 3 < cfg0.N) (b : Fin 32) (q : Fin 512) :
    Pipeline.accAt (Value.reset6 m c) (Value.step6 m c) B 3 h (ix2 b q)
      = entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b (edge n q) := by
  rw [Pipeline.accAt_succ, Pipeline.accAt_succ, Pipeline.accAt_succ, Pipeline.accAt_zero]
  rw [step_at m c _ _ n 3 (by rw [hB]; rfl), step_at m c _ _ n 2 (by rw [hB]; rfl), step_at m c _ _ n 1 (by rw [hB]; rfl),
    reset_at m c _ _ n (by rw [hB]; rfl)]
  exact Cert.HalvedSum.tiled_eq_whole _ _ Cert.HalvedSum.half_nonneg Cert.HalvedSum.half_ne_top
    (fun j => message (m ((c : Thread nD τ).loc main_arg0)) (m ((c : Thread nD τ).loc main_arg1)) (m ((c : Thread nD τ).loc main_arg2)) b (edge n q) j)
    (fun k j => message (m ((c : Thread nD τ).loc main_arg0)) (m ((c : Thread nD τ).loc main_arg1)) (m ((c : Thread nD τ).loc main_arg2)) b (edge n q) (incoming k j))
    (fun _ _ => rfl)

/-- The array the kernel leaves is the update of its six arguments. -/
theorem result_eq (c : Dev nD) :
    Value.G6 m c = update (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, e, rfl⟩ : ∃ (b : Fin 32) (e : Fin 8192), i = ix2 b e := ⟨i 0, i 1, eq_ix2 i⟩
  have hb := b.isLt
  have he := e.isLt
  have hN : cfg0.N = 64 := N_0
  have hr : Value.run6Of (ix2 b e) = e.val / 512 := by
    show 16 * (b.val / 32 - 0) + 1 * (e.val / 512 - 0) = _
    omega
  have hl : Value.loc6Of (ix2 b e) = ix2 b (⟨e.val % 512, Nat.mod_lt _ (by decide)⟩ : Fin 512) := by
    funext a
    apply Fin.ext
    match a with
    | ⟨0, _⟩ => show b.val % 32 = b.val; omega
    | ⟨1, _⟩ => rfl
  unfold Value.G6
  rw [dif_pos (by rw [hr, hN]; omega), hl]
  rw [fold_entry m c ⟨e.val / 512, by omega⟩ _ (by rw [hr]) _ b _]
  show entry _ _ _ _ _ _ b _ = entry _ _ _ _ _ _ b e
  congr 1
  apply Fin.ext
  show e.val / 512 * 512 + e.val % 512 = e.val
  omega

end Cert.KernelIdeal.TileFold

end
-- ==== Proof.lean ====
/-
  One round of belief propagation on a Tanner graph, tiled against its plain formula.

  Both programs compute, for batch row b and outgoing edge e,

      out(b, e) = ½ · ( ∑_{v < 2048} (llr_weight(0, v) · llr(b, v)) · expander(e, v)
                       + ∑_{j < 8192} input(b, j) · (mask(e, j) · weight(e, j)) ).

  The reference forms the two matrix products whole and halves their sum (Proof/RefValue.lean). The kernel walks a
  16 × 4 grid: for each tile of 512 outgoing edges it writes ½·(channel term) + ½·(messages of the first 2048 incoming
  edges) and then adds ½·(messages of the next 2048) three more times (Proof/TileTerms.lean, Proof/TileReads.lean,
  Proof/TileFold.lean). On the extended reals a nonnegative real factor distributes over any sum and addition is
  associative and commutative (Proof/HalvedSum.lean), so the two arrangements are one function of the arguments
  (Proof/BeliefUpdate.lean), whatever the arguments hold: the precondition is not used. The change to the narrow
  float format before each product is the identity on extended reals. The kernel's idealization rewrites nothing, so
  that conjunct is trivial; the three frame conjuncts are the generated runs with the result dropped.
-/
import proofs.«104594_j33414845562978_2_alg».proof.Defs
import proofs.«104594_j33414845562978_2_alg».proof.Proof.Gen.Kernel.Frame
import proofs.«104594_j33414845562978_2_alg».proof.Proof.Gen.KernelIdeal.Value
import proofs.«104594_j33414845562978_2_alg».proof.Proof.Gen.Pre_finite_inputs
import proofs.«104594_j33414845562978_2_alg».proof.Proof.Gen.ReferenceIdeal.Run
import proofs.«104594_j33414845562978_2_alg».proof.Proof.RefValue
import proofs.«104594_j33414845562978_2_alg».proof.Proof.TileFold
import Idealize.ShloMosaic.Adequacy
import Idealize.ShloMosaic.Init

noncomputable section

namespace Cert.Proof

open Idealize.ShloMosaic Idealize.SL.Sem

/-- The idealized kernel terminates without a fault and leaves its arguments as they were: its value run, the result
    dropped. -/
theorem frame_KernelIdeal : frame_KernelIdeal := fun m ρ _ =>
  (θ_run Cert.KernelIdeal.defs _ _).mono (fun _ h c => (h c).2) (Cert.KernelIdeal.Value.run (F := Ideal) m ρ)

/-- The same for the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the six arguments both programs end with the belief update of those arguments in
    their result array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.RefValue.result_eq _ _ _ _ _ _).trans (Cert.KernelIdeal.TileFold.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
